-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S128x16384 : Shape := ⟨2, ![128, 16384]⟩
abbrev S128 : Shape := ⟨1, ![128]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x16384_S128x16384_0_0 : ∀ a, (![0, 0] : Fin 2 → Nat) a + S128x16384.size a ≤ S128x16384.size a
  h_S128x16384 : 0 < S128x16384.numel
  reduces_S128x16384_S128 : S128x16384.Reduces [1] S128
  shapeCasts_S128_S128x1 : S128.ShapeCasts S128x1
  shapeCasts_S128x1_S128x1 : S128x1.ShapeCasts S128x1
  broadcasts_S128x1_S128x16384 : S128x1.Broadcasts S128x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)

variable [Facts₀]

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S_, .f32⟩
  | .hbm, ⟨3, _⟩ => ⟨S4096x16384, .f32⟩
  | .hbm, ⟨4, _⟩ => ⟨S4096x16384, .i1⟩
  | .hbm, ⟨5, _⟩ => ⟨S_, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096, .f32⟩
  | .hbm, ⟨11, _⟩ => ⟨S4096x16384, .i32⟩
  | .hbm, ⟨12, _⟩ => ⟨S_, .i32⟩
  | .hbm, ⟨13, _⟩ => ⟨S4096, .i32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096x16384, .f32⟩
  | .hbm, ⟨18, _⟩ => ⟨S4096x16384, .i1⟩
  | .hbm, ⟨19, _⟩ => ⟨S_, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S4096x16384, .f32⟩
  | .hbm, ⟨25, _⟩ => ⟨S4096x1, .f32⟩
  | .hbm, ⟨26, _⟩ => ⟨S4096x16384, .f32⟩
  | .hbm, ⟨27, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  reducesTo_S4096x16384_S4096_d1 : S4096x16384.ReducesTo [1] S4096
  h_S_ : 0 < S_.numel
  natLt_1_32 : 1 < 32
  bcast_S4096_S4096x1_0 : S4096.BroadcastsInDim S4096x1 (![0] : Fin 1 → Fin S4096x1.rank)
  bcast_S4096x1_S4096x16384_0_1 : S4096x1.BroadcastsInDim S4096x16384 (![0, 1] : Fin 2 → Fin S4096x16384.rank)

variable [Facts₀]

class Facts : Prop extends Facts₀ where

variable [Facts]
-- ==== Proof.RowAlpha.lean ====
/-
  One scale per row and the sign of each entry.

  For a matrix `x` the result at `(r, j)` is `alpha r` where `x (r, j)` is above zero and `0 - alpha r` elsewhere,
  with `alpha r = (∑ₖ |x (r, k)|) / (∑ₖ [|x (r, k)| > 0])`: the row's sum of absolute values over the number of its
  entries that are not zero, that number taken as a float sum of ones and zeros.

  Three facts about the extended reals join the two ways of computing it.
  * Masking `|a|` by `|a| > 0` changes nothing: `|a| = max a (-a)` is never below zero, so where it is not above zero it
    is zero, which is what the mask puts there.
  * Counting in 32-bit words and converting the count gives the float sum of ones: a sum of at most `N < 2³¹` words each
    `0` or `1` never wraps and its sign bit stays clear, so the word's signed value is the number of ones.
  * `(±1) · α` is `α` and `-α = 0 - α`, at the infinities too (no distributivity is involved).
-/
import Idealize.ShloMosaic.PureOps.Ideal.Laws
import Idealize.ShloMosaic.PureOps.IdealRules
import Idealize.ShloMosaic.PureOps.Reduce
import Idealize.ShloMosaic.Lib.ValueIdx

noncomputable section

namespace Cert.RowAlpha

open Idealize.ShloMosaic Idealize.ShloMosaic.ValueIdx
open scoped BigOperators

/-! ## The three float words and the two scalar operations -/

abbrev zeroW : Ideal .f32 := Scalar.ofBits .f32 0x00000000#32
abbrev oneW : Ideal .f32 := Scalar.ofBits .f32 0x3F800000#32
abbrev negOneW : Ideal .f32 := Scalar.ofBits .f32 0xBF800000#32

theorem zeroW_eq : zeroW = 0 := Ideal.ofBits_zero_f32
theorem oneW_eq : oneW = 1 := IdealRules.sign_bit.ideal_onePat .f32
theorem negOneW_eq : negOneW = -1 := IdealRules.sign_bit.ideal_negOnePat .f32

/-- The absolute value `max a (-a)`. -/
abbrev absE (a : EReal) : EReal := FloatOps.absf (F := Ideal) (φ := .f32) a
/-- The bit "`a` is above zero". -/
abbrev pos (a : EReal) : BitVec 1 := FloatOps.cmpf (F := Ideal) (φ := .f32) .ogt a zeroW

theorem pos_eq_one_iff (a : EReal) : pos a = 1#1 ↔ 0 < a := by
  show BitVec.ofBool (decide (zeroW < a)) = 1#1 ↔ 0 < a
  rw [zeroW_eq]
  by_cases h : 0 < a <;> simp [h]

/-! ## The specification -/

/-- A row's scale: its sum of absolute values over its count of entries that are not zero. -/
def rowAlpha {N : ℕ} (row : Fin N → EReal) : EReal :=
  FloatOps.divf (F := Ideal) (φ := .f32) (∑ k : Fin N, absE (row k))
    (∑ k : Fin N, Scalar.select (pos (absE (row k))) oneW zeroW)

/-- The scale where the entry is above zero, zero minus the scale elsewhere. -/
def signed (a α : EReal) : EReal :=
  Scalar.select (pos a) α (FloatOps.subf (F := Ideal) (φ := .f32) zeroW α)

/-- The whole result, entry by entry. -/
def G {R N : ℕ} (x : (⟨2, ![R, N]⟩ : Shape).Idx → EReal) : (⟨2, ![R, N]⟩ : Shape).Idx → EReal :=
  fun i => signed (x i) (rowAlpha fun k => x (ix2 (i 0) k))

theorem G_apply {R N : ℕ} (x : (⟨2, ![R, N]⟩ : Shape).Idx → EReal) (r : Fin R) (j : Fin N) :
    G x (ix2 r j) = signed (x (ix2 r j)) (rowAlpha fun k => x (ix2 r k)) := rfl

/-! ## Masking the absolute value by its own positivity -/

theorem absE_nonneg (a : EReal) : 0 ≤ absE a := by
  show 0 ≤ max a (-a)
  rcases le_total 0 a with h | h
  · exact le_max_of_le_left h
  · exact le_max_of_le_right (EReal.neg_nonneg.mpr h)

theorem sel_abs (a : EReal) : Scalar.select (pos (absE a)) (absE a) zeroW = absE a := by
  by_cases h : pos (absE a) = 1#1
  · rw [h, select_one]
  · rw [eq_zero_of_ne_one h, select_zero, zeroW_eq]
    exact le_antisymm (absE_nonneg a) (not_lt.mp fun hlt => h ((pos_eq_one_iff _).mpr hlt))

/-! ## The sign times the scale -/

theorem sign_mul (a α : EReal) :
    FloatOps.mulf (F := Ideal) (φ := .f32) (Scalar.select (pos a) oneW negOneW) α = signed a α := by
  unfold signed
  by_cases h : pos a = 1#1
  · rw [h, select_one, select_one, oneW_eq]
    exact one_mul α
  · rw [eq_zero_of_ne_one h, select_zero, select_zero, negOneW_eq, zeroW_eq]
    show -1 * α = 0 - α
    rw [neg_mul, one_mul, zero_sub]

/-! ## Counting in words -/

/-- A sum of `0`/`1` words over part of `Fin N`, `N < 2³²`, is the number of ones: it never wraps. -/
theorem fold_addi_toNat {N : ℕ} (hN : N < 2 ^ 32) (b : Fin N → BitVec 1) (s : Finset (Fin N)) :
    (s.fold IntOp.addi 0#32 (fun k => (b k).setWidth 32)).toNat = (s.filter fun k => b k = 1#1).card := by
  induction s using Finset.induction_on with
  | empty => simp
  | insert a s ha ih =>
    rw [Finset.fold_insert ha, Finset.filter_insert]
    show ((b a).setWidth 32 + _).toNat = _
    rw [BitVec.toNat_add, ih]
    have hc : (s.filter fun k => b k = 1#1).card ≤ s.card := Finset.card_filter_le _ _
    have hs : (insert a s).card ≤ N := by simpa using Finset.card_le_univ (insert a s)
    rw [Finset.card_insert_of_notMem ha] at hs
    rcases BitVec.eq_zero_or_eq_one (b a) with h0 | h1
    · rw [h0, if_neg (by decide)]
      show (0 + _) % 2 ^ 32 = _
      rw [Nat.zero_add, Nat.mod_eq_of_lt (by omega)]
    · rw [h1, if_pos rfl, Finset.card_insert_of_notMem (fun hm => ha (Finset.mem_of_mem_filter _ hm))]
      show (1 + _) % 2 ^ 32 = _
      rw [Nat.mod_eq_of_lt (by omega)]; omega

/-- The float sum of ones over the entries whose bit is set is the number of them. -/
theorem sum_select_one {N : ℕ} (b : Fin N → BitVec 1) (s : Finset (Fin N)) :
    ∑ k ∈ s, Scalar.select (b k) oneW zeroW = (((s.filter fun k => b k = 1#1).card : ℝ) : EReal) := by
  induction s using Finset.induction_on with
  | empty => simp
  | insert a s ha ih =>
    rw [Finset.sum_insert ha, ih, Finset.filter_insert]
    rcases BitVec.eq_zero_or_eq_one (b a) with h0 | h1
    · rw [h0, select_zero, if_neg (by decide), zeroW_eq, zero_add]
    · rw [h1, select_one, if_pos rfl, oneW_eq,
        Finset.card_insert_of_notMem (fun hm => ha (Finset.mem_of_mem_filter _ hm))]
      push_cast
      rw [add_comm]

/-- The count of set bits, added up in 32-bit words and converted to a float, is the float sum of ones. -/
theorem count_words {N : ℕ} (hN : N < 2 ^ 31) (b : Fin N → BitVec 1) :
    ((((Finset.univ : Finset (Fin N)).fold IntOp.addi 0#32 (fun k => (b k).setWidth 32)).toInt : ℝ) : EReal)
      = ∑ k : Fin N, Scalar.select (b k) oneW zeroW := by
  have hnat := fold_addi_toNat (by omega : N < 2 ^ 32) b Finset.univ
  have hle : (Finset.univ.filter fun k => b k = 1#1).card ≤ N := by
    simpa using Finset.card_filter_le (Finset.univ : Finset (Fin N)) fun k => b k = 1#1
  rw [sum_select_one b Finset.univ, BitVec.toInt_eq_toNat_of_lt (by rw [hnat]; omega), hnat]
  norm_cast

end Cert.RowAlpha

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KernelBlock.lean ====
/-
  The kernel computes the specification, block by block.

  Grid point `t` holds rows `128·t … 128·t + 127` of the argument, all 16384 lanes of each, and writes back the same rows
  of the result. Within the block the body takes, per row, the sum over the lanes of `|x|` and the sum over the lanes
  of the one-or-zero mask `|x| > 0`, divides the first by the second, keeps the quotient as a column, spreads the
  column (and zero minus it) back over the lanes and selects by `x > 0`. A row's scale depends only on that row, and a
  block holds whole rows, so the block's result is the specification of the whole array read at the block's rows.
  The 32 blocks tile the 4096 rows: row `r` is in block `r / 128`.
-/
import proofs.«101524_j66743791780423_2_alg».proof.Proof.Gen.KernelIdeal.Frame
import proofs.«101524_j66743791780423_2_alg».proof.Proof.RowAlpha
import proofs.«101524_j66743791780423_2_alg».proof.Proof.LibLayout
import Idealize.ShloMosaic.Lib.Pipeline.Value

noncomputable section

namespace Cert.KernelValue

open Cert.KernelIdeal Cert.KernelIdeal.Gen Idealize.ShloMosaic Idealize.ShloMosaic.TcCoe Idealize.SL.Sem
open Idealize.ShloMosaic.ValueIdx Cert.RowAlpha Cert.LibLayout
open Idealize.ShloMosaic.Pipeline (Dat)
open scoped BigOperators

/-! ## The body's arithmetic on one block -/

/-- Per row of the block, the sum over the lanes of the absolute values. -/
def absSumVec (P : FVec Ideal S128x16384 .f32) : FVec Ideal S128 .f32 :=
  multiReduction .add [1] S128 (absf P) 0x00000000#32 reduces_S128x16384_S128 (.inl rfl) rfl

/-- Per row of the block, the sum over the lanes of the one-or-zero mask "the absolute value is above zero". -/
def countVec (P : FVec Ideal S128x16384 .f32) : FVec Ideal S128 .f32 :=
  multiReduction .add [1] S128 (select (cmpf .ogt (absf P) (broadcast S128x16384 (Scalar.ofBits .f32 0x00000000#32)))
    (broadcast S128x16384 (Scalar.ofBits .f32 0x3F800000#32)) (broadcast S128x16384 (Scalar.ofBits .f32 0x00000000#32)))
    0x00000000#32 reduces_S128x16384_S128 (.inl rfl) rfl

/-- The column of the rows' scales. -/
def alphaCol (P : FVec Ideal S128x16384 .f32) : FVec Ideal S128x1 .f32 :=
  divf (shapeCast S128x1 (absSumVec P) shapeCasts_S128_S128x1) (shapeCast S128x1 (countVec P) shapeCasts_S128_S128x1)

/-- The stored value as its tree of operations: the scale column and zero minus it, each spread over the lanes,
    selected by the entry's sign. -/
theorem pay_eq (P : FVec Ideal S128x16384 .f32) :
    k0_pay1 (F := Ideal) P
      = select (cmpf .ogt P (broadcast S128x16384 (Scalar.ofBits .f32 0x00000000#32)))
          (broadcastTo S128x16384 (shapeCast S128x1 (alphaCol P) shapeCasts_S128x1_S128x1) broadcasts_S128x1_S128x16384)
          (broadcastTo S128x16384 (shapeCast S128x1 (subf (broadcast S128x1 (Scalar.ofBits .f32 0x00000000#32)) (alphaCol P))
            shapeCasts_S128x1_S128x1) broadcasts_S128x1_S128x16384) := rfl

theorem absSumVec_apply (P : FVec Ideal S128x16384 .f32) (p : Fin 128) :
    absSumVec P (ix1 p) = ∑ k : Fin 16384, absE (P (ix2 p k)) :=
  laneSum_apply (absf P) _ _ _ p

theorem countVec_apply (P : FVec Ideal S128x16384 .f32) (p : Fin 128) :
    countVec P (ix1 p) = ∑ k : Fin 16384, Scalar.select (pos (absE (P (ix2 p k)))) oneW zeroW :=
  laneSum_apply _ _ _ _ p

/-- The scale column at row `p` is the scale of the block's row `p`. -/
theorem alphaCol_apply (P : FVec Ideal S128x16384 .f32) (p : Fin 128) :
    alphaCol P (ix2 p (0 : Fin 1)) = rowAlpha fun k => P (ix2 p k) := by
  show FloatOps.divf (shapeCast S128x1 (absSumVec P) shapeCasts_S128_S128x1 (ix2 p (0 : Fin 1)))
      (shapeCast S128x1 (countVec P) shapeCasts_S128_S128x1 (ix2 p (0 : Fin 1))) = _
  rw [shapeCast_a_a1_apply, shapeCast_a_a1_apply, absSumVec_apply, countVec_apply]
  rfl

/-- A column, cast to its own shape and spread over the lanes, read at `(p, j)`: the column's entry of row `p`. -/
theorem spread_apply (s : FVec Ideal S128x1 .f32) (p : Fin 128) (j : Fin 16384) :
    broadcastTo S128x16384 (shapeCast S128x1 s shapeCasts_S128x1_S128x1) broadcasts_S128x1_S128x16384 (ix2 p j)
      = s (ix2 p (0 : Fin 1)) :=
  (broadcastTo_a1_ab_apply _ _ p j).trans (congrFun (shapeCast_self s _) _)

/-- The stored value at `(p, j)`: the scale of the block's row `p`, signed by the entry. -/
theorem pay_apply (P : FVec Ideal S128x16384 .f32) (p : Fin 128) (j : Fin 16384) :
    k0_pay1 (F := Ideal) P (ix2 p j) = signed (P (ix2 p j)) (rowAlpha fun k => P (ix2 p k)) := by
  rw [pay_eq]
  show Scalar.select (pos (P (ix2 p j)))
      (broadcastTo S128x16384 (shapeCast S128x1 (alphaCol P) shapeCasts_S128x1_S128x1) broadcasts_S128x1_S128x16384 (ix2 p j))
      (broadcastTo S128x16384 (shapeCast S128x1 (subf (broadcast S128x1 (Scalar.ofBits .f32 0x00000000#32)) (alphaCol P))
        shapeCasts_S128x1_S128x1) broadcasts_S128x1_S128x16384 (ix2 p j)) = _
  rw [spread_apply, spread_apply]
  show Scalar.select (pos (P (ix2 p j))) (alphaCol P (ix2 p (0 : Fin 1)))
      (FloatOps.subf zeroW (alphaCol P (ix2 p (0 : Fin 1)))) = _
  rw [alphaCol_apply]
  rfl

/-- A block that holds whole rows of an array `x` — entry `y` of the block is entry `e y` of the array, and `e` keeps
    lanes and sends a row of the block into one row of the array — is stored as the specification of `x` at `e y`. -/
theorem block_apply (x : S4096x16384.Idx → EReal) (P : FVec Ideal S128x16384 .f32) (e : S128x16384.Idx → S4096x16384.Idx)
    (hP : ∀ y, P y = x (e y))
    (hrow : ∀ (p : Fin 128) (j k : Fin 16384), e (ix2 p k) = ix2 (e (ix2 p j) 0) k)
    (y : S128x16384.Idx) : k0_pay1 (F := Ideal) P y = G x (e y) := by
  obtain ⟨p, j, rfl⟩ : ∃ (p : Fin 128) (j : Fin 16384), y = ix2 p j := ⟨y 0, y 1, eq_ix2 y⟩
  rw [pay_apply]
  show signed (P (ix2 p j)) (rowAlpha fun k => P (ix2 p k))
      = signed (x (e (ix2 p j))) (rowAlpha fun k => x (ix2 (e (ix2 p j) 0) k))
  rw [hP]
  exact congrArg (signed _) (congrArg rowAlpha (funext fun k => (hP (ix2 p k)).trans (congrArg x (hrow p j k))))

/-! ## From the blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The two windows move together over the rows and never along the lanes; the row block index stays below 32. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 31 :=
  (by decide +kernel : ∀ t : Fin grid0.N, _)

/-- Every one of the 32 row blocks is some point's. -/
theorem idx_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the specification of the argument array. -/
theorem flushed_eq (c : Dev nD) (t : Fin cfg0.N) :
    (dats m 0 c).flushed 1 t = ((cfg0.win 1).blk t).view.read (Elt Ideal) (G (V m c main_arg0)) := by
  show (cfg0.win 1).cut (grid0.coords t) ((dats m 0 c).after 1 t) = _
  rw [after0_1]
  unfold out0_1
  rw [View.canon_unit_zero hz]
  simp only [View.ld_unit_zero (S := S128x16384) hz]
  obtain ⟨e0, e1, e2, e3⟩ := idx_facts t
  funext y
  show k0_pay1 (F := Ideal) (iblk m c 0 t) y = G (V m c main_arg0) (((cfg0.win 1).blk t).view.emb y)
  refine block_apply (V m c main_arg0) (iblk m c 0 t) (((cfg0.win 1).blk t).view.emb) (fun y => ?_) (fun p j k => ?_) y
  · show V m c main_arg0 (((cfg0.win 0).blk t).view.emb y) = V m c main_arg0 (((cfg0.win 1).blk t).view.emb y)
    refine congrArg (V m c main_arg0) (funext fun a => Fin.ext ?_)
    match a with
    | ⟨0, _⟩ => show win0_0.index t (0 : Fin 2) * 128 + 1 * (y 0).val = win0_1.index t (0 : Fin 2) * 128 + 1 * (y 0).val; omega
    | ⟨1, _⟩ => show win0_0.index t (1 : Fin 2) * 16384 + 1 * (y 1).val = win0_1.index t (1 : Fin 2) * 16384 + 1 * (y 1).val; omega
  · funext a
    refine Fin.ext ?_
    match a with
    | ⟨0, _⟩ => rfl
    | ⟨1, _⟩ => show win0_1.index t (1 : Fin 2) * 16384 + 1 * k.val = k.val; omega

/-- An index of the array is in point `t`'s block iff each coordinate is in the block's range on its axis. -/
theorem mem_blk (t : Fin cfg0.N) (i : S4096x16384.Idx) :
    i ∈ ((cfg0.win 1).blk t).view.set ↔ ∀ a : Fin 2, win0_1.index t a * S128x16384.size a ≤ (i a).val ∧ (i a).val < win0_1.index t a * S128x16384.size a + S128x16384.size a := by
  show i ∈ ((View.whole main_v0).slice (win0_1.rect t)).set ↔ _
  rw [View.set_slice_whole, Rect.mem_set_unit]
  exact Iff.rfl

/-- Every entry of the result is in some point's block: row `r` is in block `r / 128`. -/
theorem covered (i : S4096x16384.Idx) :
    ∃ t : Fin cfg0.N, (cfg0.win 1).flush t = true ∧ i ∈ ((cfg0.win 1).blk t).view.set := by
  have hi0 : (i 0).val < 4096 := (i 0).isLt
  have hi1 : (i 1).val < 16384 := (i 1).isLt
  obtain ⟨t, ht⟩ := idx_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 16384 ≤ (i 1).val ∧ (i 1).val < win0_1.index t (1 : Fin 2) * 16384 + 16384; omega

/-- The result array after the run is the specification of the argument array. -/
theorem final (c : Dev nD) : (dats m 0 c).arrAt 1 cfg0.N = G (V m c main_arg0) :=
  (dats m 0 c).arrAt_eq_of_cover 1 (G (V m c main_arg0)) (fun t _ => flushed_eq m c t) covered

/-- The kernel's run: every execution ends with the result array at the specification of the argument, the argument
    as launched. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelValue

end
-- ==== Proof.RefIsG.lean ====
/-
  The reference computes the specification.

  Read at entry `(r, j)`, the reference multiplies the sign word of `x (r, j)` (`1` above zero, `-1` elsewhere) by the
  scale of row `r`, broadcast from a vector of 4096 scales through a column. The scale is the row's sum of
  `|x|` masked by `|x| > 0` (from the zero word) over the count of set mask bits, added up in 32-bit words and
  converted. Each of the three differences from the specification is one law of the specification's module: the mask on
  the absolute values changes nothing, the converted word count is the float sum of ones, and the sign word times the
  scale is the scale or zero minus it.
-/
import proofs.«101524_j66743791780423_2_alg».proof.Proof.Gen.ReferenceIdeal.Read
import proofs.«101524_j66743791780423_2_alg».proof.Proof.RowAlpha
import proofs.«101524_j66743791780423_2_alg».proof.Proof.LibLayout
import Idealize.ShloMosaic.PureOps.Reduce

noncomputable section

namespace Cert.RefValue

open Cert.ReferenceIdeal Cert.ReferenceIdeal.Gen Cert.ReferenceIdeal.Read
open Idealize.ShloMosaic Idealize.ShloMosaic.ValueIdx Cert.RowAlpha
open scoped BigOperators

variable (x : (⟨S4096x16384, .f32⟩ : BufTy).Contents (Elt Ideal))

/-- The mask bit at an entry: its absolute value is above zero. -/
theorem mask_apply (i : S4096x16384.Idx) : val_main_v2 (F := Ideal) x i = pos (absE (x i)) := by
  rw [val_main_v2_apply, val_main_v0_apply, val_main_v1_apply, val_main_cst_apply]
  rfl

/-- The masked absolute value at an entry is the absolute value. -/
theorem masked_apply (i : S4096x16384.Idx) : val_main_v3 (F := Ideal) x i = absE (x i) := by
  rw [val_main_v3_apply, mask_apply, val_main_v0_apply, val_main_call0_v1_apply, val_main_call0_v0_apply,
    val_main_cst_0_apply]
  exact sel_abs (x i)

/-- Lane `k` of row `r`, as the host's sum indexes it. -/
theorem lane_idx (r : Fin 4096) (k : Fin 16384) : idx_main_v4 (ix1 r) k = ix2 r k := by
  funext a
  match a with
  | ⟨0, _⟩ => rfl
  | ⟨1, _⟩ => rfl

/-- Row `r`'s sum of masked absolute values is its sum of absolute values. -/
theorem absSum_apply (r : Fin 4096) :
    val_main_v4 (F := Ideal) x (ix1 r) = ∑ k : Fin 16384, absE (x (ix2 r k)) := by
  rw [val_main_v4_apply, val_main_cst_1_apply]
  show Ideal.ofBits .f32 0x00000000#32 + _ = _
  rw [Ideal.ofBits_zero_f32, zero_add]
  refine Finset.sum_congr rfl fun k _ => ?_
  rw [masked_apply, lane_idx]

/-- Row `r`'s count of set mask bits, converted, is the float sum of ones over them. -/
theorem count_apply (r : Fin 4096) :
    val_main_v7 (F := Ideal) x (ix1 r) = ∑ k : Fin 16384, Scalar.select (pos (absE (x (ix2 r k)))) oneW zeroW := by
  have hred : S4096x16384.Reduces [1] S4096 := by decide
  have hfun : (val_main_v5 (F := Ideal) x ∘ hred.lift (ix1 r)) = fun k : Fin 16384 => (pos (absE (x (ix2 r k)))).setWidth 32 := by
    funext k
    show val_main_v5 (F := Ideal) x (hred.lift (ix1 r) k) = _
    rw [val_main_v5_apply, mask_apply, Cert.LibLayout.lift_row hred r k]
  rw [val_main_v7_apply]
  unfold val_main_v6
  rw [Host.reduce_eq_fold_single IntOp.addi _ _ reducesTo_S4096x16384_S4096_d1 hred h_S_ (ix1 r), hfun]
  exact count_words (by norm_num) _

/-- Row `r`'s scale. -/
theorem alpha_apply (r : Fin 4096) : val_main_v8 (F := Ideal) x (ix1 r) = rowAlpha fun k => x (ix2 r k) := by
  rw [val_main_v8_apply, absSum_apply, count_apply]
  rfl

/-- The row an entry's scale is read from, through the column and the vector of scales. -/
theorem row_idx (r : Fin 4096) (j : Fin 16384) : idx_main_v13 (idx_main_v14 (ix2 r j)) = ix1 r := by
  funext a
  match a with
  | ⟨0, _⟩ => rfl

/-- The reference's result is the specification, entry by entry. -/
theorem ref_eq : val_main_v15 (F := Ideal) x = G x := by
  funext i
  obtain ⟨r, j, rfl⟩ : ∃ (r : Fin 4096) (j : Fin 16384), i = ix2 r j := ⟨i 0, i 1, eq_ix2 i⟩
  rw [G_apply, val_main_v15_apply, val_main_v12_apply, val_main_v11_apply, val_main_v10_apply, val_main_v9_apply,
    val_main_cst_2_apply, val_main_call1_v0_apply, val_main_cst_3_apply, val_main_call1_v1_apply, val_main_cst_4_apply,
    val_main_v14_apply, val_main_v13_apply, row_idx, alpha_apply]
  exact sign_mul _ _

end Cert.RefValue

end
-- ==== Proof.lean ====
/-
  A per-row scale with the sign of each entry, computed two ways over a [4096, 16384] matrix `x`.

  Both programs produce, at entry `(r, j)`, the scale `alpha r` where `x (r, j) > 0` and `-alpha r` elsewhere, with
  `alpha r = (∑ₖ |x (r, k)|) / #{k : |x (r, k)| > 0}`.

  * The kernel handles 128 whole rows per grid point. It sums `|x|` along the lanes, sums a one-or-zero float mask of
    `|x| > 0` along the lanes, divides, and selects between the quotient and zero minus the quotient by `x > 0`. A row's
    scale depends on that row alone and every block holds whole rows, so each block written back is the whole-array
    function read at the block's rows, and the 32 blocks tile the 4096 rows (Proof/KernelBlock.lean).
  * The reference masks `|x|` by `|x| > 0` before summing (the mask changes nothing: `|x|` is zero where it is not above
    zero), counts the mask bits in 32-bit integers and converts the count (at most 16384 ones never wrap, so this is the
    float sum of ones), and multiplies the scale by a sign word `±1` (`1·α = α`, `(-1)·α = -α = 0 - α` on the extended
    reals, infinities included) (Proof/RefIsG.lean, with the three laws in Proof/RowAlpha.lean).

  Division is the same total function on both sides (an all-zero row divides zero by zero in both), and none of the laws
  moves a factor across a sum, so the inputs' finiteness is never used.

  The three frames are the generated ones (the reference's is its generated run with the result dropped); the idealized
  kernel is the kernel's own text read over the extended reals, so there is nothing to preserve.
-/
import proofs.«101524_j66743791780423_2_alg».proof.Defs
import proofs.«101524_j66743791780423_2_alg».proof.Proof.Gen.Kernel
import proofs.«101524_j66743791780423_2_alg».proof.Proof.Gen.Kernel.Skeleton
import proofs.«101524_j66743791780423_2_alg».proof.Proof.Gen.Kernel.Launch
import proofs.«101524_j66743791780423_2_alg».proof.Proof.Gen.Kernel.Points
import proofs.«101524_j66743791780423_2_alg».proof.Proof.Gen.Kernel.Frame
import proofs.«101524_j66743791780423_2_alg».proof.Proof.Gen.KernelIdeal
import proofs.«101524_j66743791780423_2_alg».proof.Proof.Gen.KernelIdeal.Skeleton
import proofs.«101524_j66743791780423_2_alg».proof.Proof.Gen.KernelIdeal.Launch
import proofs.«101524_j66743791780423_2_alg».proof.Proof.Gen.KernelIdeal.Points
import proofs.«101524_j66743791780423_2_alg».proof.Proof.Gen.KernelIdeal.Frame
import proofs.«101524_j66743791780423_2_alg».proof.Proof.Gen.ReferenceIdeal
import proofs.«101524_j66743791780423_2_alg».proof.Proof.Gen.Pre_finite_inputs
import proofs.«101524_j66743791780423_2_alg».proof.Proof.Gen.ReferenceIdeal.Run
import proofs.«101524_j66743791780423_2_alg».proof.Proof.Gen.ReferenceIdeal.Read
import proofs.«101524_j66743791780423_2_alg».proof.Proof.KernelBlock
import proofs.«101524_j66743791780423_2_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the one whole-array function of the argument: the kernel's blocks tile it,
    and the reference's composed term is it, entry by entry; the arguments agree. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefValue.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
